-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x512 : Shape := ⟨4, ![4, 128, 128, 512]⟩
abbrev S128x512 : Shape := ⟨2, ![128, 512]⟩
abbrev S128 : Shape := ⟨1, ![128]⟩
abbrev S_ : Shape := ⟨0, ![]⟩

class Facts : Prop where
  bcast_S_S4x128x128x512 : S_.BroadcastsInDim S4x128x128x512 (![] : Fin 0 → Fin S4x128x128x512.rank)
  reducesTo_S4x128x128x512_S_d0_1_2_3 : S4x128x128x512.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x128x128x512 .f32) (main_arg1 : FVec F S128x512 .f32) (main_arg2 : FVec F S128 .f32) : IVec S_ 1 :=
  let main_v0 : FVec F S4x128x128x512 .f32 := Host.absf main_arg0
  let main_cst : FVec F S_ .f32 := constant S_ .f32 0x7F800000#32
  let main_v1 : FVec F S4x128x128x512 .f32 := broadcastInDim S4x128x128x512 ![] bcast_S_S4x128x128x512 main_cst
  let main_v2 : IVec S4x128x128x512 1 := cmpf .olt main_v0 main_v1
  let main_c : IVec S_ 1 := constantI S_ 1 1#1
  let main_v3 : IVec S_ 1 := (fun x v => Host.reduce IntOp.andi x v reducesTo_S4x128x128x512_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x128x128x512 : Shape := ⟨4, ![4, 128, 128, 512]⟩
abbrev S128x512 : Shape := ⟨2, ![128, 512]⟩
abbrev S128 : Shape := ⟨1, ![128]⟩
abbrev S4x16384x512 : Shape := ⟨3, ![4, 16384, 512]⟩
abbrev S128x1 : Shape := ⟨2, ![128, 1]⟩
abbrev S4x128x16384 : Shape := ⟨3, ![4, 128, 16384]⟩
abbrev S1x4096x512 : Shape := ⟨3, ![1, 4096, 512]⟩
abbrev S1x128x4096 : Shape := ⟨3, ![1, 128, 4096]⟩
abbrev S4096x512 : Shape := ⟨2, ![4096, 512]⟩
abbrev S128x4096 : Shape := ⟨2, ![128, 4096]⟩
abbrev S4x128x128x128 : Shape := ⟨4, ![4, 128, 128, 128]⟩

abbrev nBuf : Space → Nat
  | .hbm => 7
  | .vmem => 6
  | .smem => 0
  | _ => 0

abbrev bufTy : (tb : Table) → Fin (tcTables nBuf tb) → BufTy
  | .hbm, ⟨0, _⟩ => ⟨S4x128x128x512, .f32⟩
  | .hbm, ⟨1, _⟩ => ⟨S128x512, .f32⟩
  | .hbm, ⟨2, _⟩ => ⟨S128, .f32⟩
  | .hbm, ⟨3, _⟩ => ⟨S4x16384x512, .f32⟩
  | .hbm, ⟨4, _⟩ => ⟨S128x1, .f32⟩
  | .hbm, ⟨5, _⟩ => ⟨S4x128x16384, .f32⟩
  | .hbm, ⟨6, _⟩ => ⟨S4x128x128x128, .f32⟩
  | .local _ .vmem, ⟨0, _⟩ => ⟨S1x4096x512, .f32⟩
  | .local _ .vmem, ⟨1, _⟩ => ⟨S1x4096x512, .f32⟩
  | .local _ .vmem, ⟨2, _⟩ => ⟨S128x512, .f32⟩
  | .local _ .vmem, ⟨3, _⟩ => ⟨S128x1, .f32⟩
  | .local _ .vmem, ⟨4, _⟩ => ⟨S1x128x4096, .f32⟩
  | .local _ .vmem, ⟨5, _⟩ => ⟨S1x128x4096, .f32⟩
  | _, _ => ⟨S4x128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x128x128x512_S4x16384x512 : S4x128x128x512.ShapeCasts S4x16384x512
  shapeCasts_S128_S128x1 : S128.ShapeCasts S128x1
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  shapeCasts_S4x128x16384_S4x128x128x128 : S4x128x16384.ShapeCasts S4x128x128x128
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x16384x512.size a
  hwx0_0 : ∀ i : grid0.Coords, EltTy.bits .f32 = 32 ∨ (Rect.block (s := S4x16384x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S4x128x16384.size a
  hwx0_3 : ∀ i : grid0.Coords, EltTy.bits .f32 = 32 ∨ (Rect.block (s := S4x128x16384) S1x128x4096.size (cc0_transform_3 i) (hinb0_3 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_v0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x128x512 : Shape := ⟨4, ![4, 128, 128, 512]⟩
abbrev S128x512 : Shape := ⟨2, ![128, 512]⟩
abbrev S128 : Shape := ⟨1, ![128]⟩
abbrev S4x128x128x128 : Shape := ⟨4, ![4, 128, 128, 128]⟩
abbrev S1x1x1x128 : Shape := ⟨4, ![1, 1, 1, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x128x128x512, .f32⟩
  | .hbm, ⟨1, _⟩ => ⟨S128x512, .f32⟩
  | .hbm, ⟨2, _⟩ => ⟨S128, .f32⟩
  | .hbm, ⟨3, _⟩ => ⟨S4x128x128x128, .f32⟩
  | .hbm, ⟨4, _⟩ => ⟨S1x1x1x128, .f32⟩
  | .hbm, ⟨5, _⟩ => ⟨S4x128x128x128, .f32⟩
  | .hbm, ⟨6, _⟩ => ⟨S4x128x128x128, .f32⟩
  | .hbm, ⟨7, _⟩ => ⟨S4x128x128x128, .f32⟩
  | _, _ => ⟨S4x128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x128x128x128_0_1_2_3 : S1x1x1x128.BroadcastsInDim S4x128x128x128 (![0, 1, 2, 3] : Fin 4 → Fin S4x128x128x128.rank)
  transposes_S4x128x128x128_S4x128x128x128_0_3_1_2 : S4x128x128x128.Transposes [0, 3, 1, 2] S4x128x128x128
  dot_S4x128x128x512_S128x512_S4x128x128x128_3_1_012_0_n_n_wf : DotDims.WF S4x128x128x512 S128x512 S4x128x128x128 [3] [1] [0, 1, 2] [0] [] []

variable [Facts₀]

def dot_S4x128x128x512_S128x512_S4x128x128x128_3_1_012_0_n_n : DotDims S4x128x128x512 S128x512 S4x128x128x128 where
  lhsContracting := [3]
  rhsContracting := [1]
  lhsNonContracting := [0, 1, 2]
  rhsNonContracting := [0]
  lhsBatch := []
  rhsBatch := []
  wf := dot_S4x128x128x512_S128x512_S4x128x128x128_3_1_012_0_n_n_wf

class Facts : Prop extends Facts₀ where

variable [Facts]
-- ==== Proof.ProjSpec.lean ====
/-
  The channel-wise projection as one function of its three argument arrays.

  For an activation array x[b, h, w, d] (4 × 128 × 128 × 512), a weight matrix W[c, d] (128 × 512) and a bias bias[c]
  (128), the result at (b, c, h, w) is   Σ_d x[b, h, w, d] · W[c, d]  +  bias[c]   on the extended reals (`proj`).

  The same numbers can be laid out with the two pixel axes merged into one axis p = 128·h + w of extent 16384, the
  weight written as the left factor of each product and the bias as a column b2[c, 0] (`projMerged`). Reading the merged
  result back at (b, c, h, w), with the merged activation and the bias column obtained from x and bias by row-major
  re-laying, gives `proj` again: the re-laying only renames positions (row-major positions agree), and each product
  commutes (`relay_projMerged`). No distributivity or cancellation is used, so nothing here needs the entries finite.
-/
import Idealize.ShloMosaic.PureOps.Ideal
import Idealize.ShloMosaic.Lib.ValueIdx
import Idealize.ShloMosaic.Lib.Pipeline.Value

noncomputable section

namespace Cert.ChannelProj

open Idealize.ShloMosaic Idealize.ShloMosaic.ValueIdx

/-- The activations, the weights, the bias; the result; and the merged-pixel layouts. -/
abbrev SX : Shape := ⟨4, ![4, 128, 128, 512]⟩
abbrev SW : Shape := ⟨2, ![128, 512]⟩
abbrev SB : Shape := ⟨1, ![128]⟩
abbrev SO : Shape := ⟨4, ![4, 128, 128, 128]⟩
abbrev SX3 : Shape := ⟨3, ![4, 16384, 512]⟩
abbrev SB2 : Shape := ⟨2, ![128, 1]⟩
abbrev SO3 : Shape := ⟨3, ![4, 128, 16384]⟩

/-- out[b, c, h, w] = Σ_d x[b, h, w, d] · W[c, d] + bias[c]. -/
def proj (x : FVec Ideal SX .f32) (w : FVec Ideal SW .f32) (bias : FVec Ideal SB .f32) : FVec Ideal SO .f32 :=
  fun i => (∑ k : Fin 512, x (ix4 (i 0) (i 2) (i 3) k) * w (ix2 (i 1) k)) + bias (ix1 (i 1))

/-- out3[b, c, p] = Σ_d W[c, d] · x3[b, p, d] + b2[c, 0]: pixels on one axis, the weight as the left factor. -/
def projMerged (x3 : FVec Ideal SX3 .f32) (w : FVec Ideal SW .f32) (b2 : FVec Ideal SB2 .f32) : FVec Ideal SO3 .f32 :=
  fun i => (∑ k : Fin 512, w (ix2 (i 1) k) * x3 (ix3 (i 0) (i 2) k)) + b2 (ix2 (i 1) (0 : Fin 1))

/-- The merged activation at (b, 128·h + w, d) is x at (b, h, w, d): both sit at row-major position
    ((128·b + h)·128 + w)·512 + d. -/
theorem relay_x (x : FVec Ideal SX .f32) (hx : SX.ShapeCasts SX3) (b : Fin 4) (h w : Fin 128) (p : Fin 16384) (k : Fin 512)
    (hp : p.val = h.val * 128 + w.val) :
    shapeCast SX3 x hx (ix3 b p k) = x (ix4 b h w k) :=
  shapeCast_apply x hx _ _ (by
    rw [Shape.rowMajor_val_four, Shape.rowMajor_val_three]
    show ((b.val * 128 + h.val) * 128 + w.val) * 512 + k.val = (b.val * 16384 + p.val) * 512 + k.val
    rw [hp]; omega)

/-- The bias column at (c, 0) is the bias at c: both sit at row-major position c. -/
theorem relay_bias (bias : FVec Ideal SB .f32) (hb : SB.ShapeCasts SB2) (c : Fin 128) :
    shapeCast SB2 bias hb (ix2 c (0 : Fin 1)) = bias (ix1 c) :=
  shapeCast_apply bias hb _ _ (by
    rw [Shape.rowMajor_val_one, Shape.rowMajor_val_two]
    show c.val = c.val * 1 + 0
    omega)

/-- The merged result re-laid to four axes is the projection: position (b, c, h, w) reads the merged result at
    (b, c, 128·h + w), whose activation row is x[b, h, w, ·]; the products commute. -/
theorem relay_projMerged (x : FVec Ideal SX .f32) (w : FVec Ideal SW .f32) (bias : FVec Ideal SB .f32)
    (hx : SX.ShapeCasts SX3) (hb : SB.ShapeCasts SB2) (ho : SO3.ShapeCasts SO) :
    shapeCast SO (projMerged (shapeCast SX3 x hx) w (shapeCast SB2 bias hb)) ho = proj x w bias := by
  funext i
  obtain ⟨b, c, h, v, rfl⟩ : ∃ (b : Fin 4) (c : Fin 128) (h : Fin 128) (v : Fin 128), i = ix4 b c h v :=
    ⟨i 0, i 1, i 2, i 3, eq_ix4 i⟩
  have hlt : h.val * 128 + v.val < 16384 := by have := h.isLt; have := v.isLt; omega
  refine (shapeCast_apply _ ho (ix4 b c h v) (ix3 b c (⟨h.val * 128 + v.val, hlt⟩ : Fin 16384)) (by
    rw [Shape.rowMajor_val_three, Shape.rowMajor_val_four]
    show (b.val * 128 + c.val) * 16384 + (h.val * 128 + v.val) = ((b.val * 128 + c.val) * 128 + h.val) * 128 + v.val
    omega)).trans ?_
  show (∑ k : Fin 512, w (ix2 c k) * shapeCast SX3 x hx (ix3 b (⟨h.val * 128 + v.val, hlt⟩ : Fin 16384) k))
      + shapeCast SB2 bias hb (ix2 c (0 : Fin 1))
    = (∑ k : Fin 512, x (ix4 b h v k) * w (ix2 c k)) + bias (ix1 c)
  rw [relay_bias bias hb c]
  refine congrArg (· + bias (ix1 c)) (Finset.sum_congr rfl fun k _ => ?_)
  rw [relay_x x hx b h v _ k rfl, mul_comm]

end Cert.ChannelProj

end
-- ==== Proof.RefValue.lean ====
/-
  The reference computes the projection.

  Its five host operations, read one at a time at an index: the result at (b, c, h, w) is the transposed sum at
  (b, h, w, c); there the contraction of x's last axis with W's last axis is Σ_d x[b, h, w, d] · W[c, d], and the bias,
  broadcast in two steps to the full shape, reads bias[c]. That is `proj` term for term.
-/
import proofs.«173189_j29549374997247_2_alg».proof.Proof.Gen.ReferenceIdeal.Read
import proofs.«173189_j29549374997247_2_alg».proof.Proof.ProjSpec

noncomputable section

namespace Cert.ReferenceIdeal.ProjValue

open Cert.ReferenceIdeal Cert.ReferenceIdeal.Read Cert.ChannelProj
open Idealize.ShloMosaic Idealize.ShloMosaic.ValueIdx

/-- At an output position (b, c, h, w), the contraction's left operand is read at (b, h, w, d) … -/
theorem lidx_eq (i : S4x128x128x128.Idx) (k : Fin 512) :
    lidx_main_v0 (idx_main_v4 i) k = ix4 (i 0) (i 2) (i 3) k :=
  funext fun a => Fin.ext (by match a with | ⟨0, _⟩ => rfl | ⟨1, _⟩ => rfl | ⟨2, _⟩ => rfl | ⟨3, _⟩ => rfl)

/-- … its right operand at (c, d) … -/
theorem ridx_eq (i : S4x128x128x128.Idx) (k : Fin 512) :
    ridx_main_v0 (idx_main_v4 i) k = ix2 (i 1) k :=
  funext fun a => Fin.ext (by match a with | ⟨0, _⟩ => rfl | ⟨1, _⟩ => rfl)

/-- … and the twice-broadcast bias at c. -/
theorem bidx_eq (i : S4x128x128x128.Idx) :
    idx_main_v1 (idx_main_v2 (idx_main_v4 i)) = ix1 (i 1) :=
  funext fun a => Fin.ext (by match a with | ⟨0, _⟩ => rfl)

/-- The reference's result is the projection of its arguments. -/
theorem result_eq (x : FVec Ideal S4x128x128x512 .f32) (w : FVec Ideal S128x512 .f32) (bias : FVec Ideal S128 .f32) :
    val_main_v4 (F := Ideal) x w bias = proj x w bias := by
  funext i
  rw [val_main_v4_apply, val_main_v3_apply, val_main_v0_apply, val_main_v2_apply, val_main_v1_apply]
  simp only [lidx_eq, ridx_eq, bidx_eq]
  rfl

end Cert.ReferenceIdeal.ProjValue

end
-- ==== Proof.BodyValue.lean ====
/-
  What the kernel body computes from its three loaded blocks, at one position.

  The body loads a block of activations x[0, p, d] (1 × 4096 × 512), the whole weight matrix W[c, d] (128 × 512) and the
  bias column b2[c, 0] (128 × 1), and stores one block (1 × 128 × 4096). At the exact instance the narrowing of both
  matmul operands is the identity, the matrix product into a zero accumulator is the plain sum over the contracted axis
  d of W[c, d] · x[p, d] (the operands are contracted along their last axes, the weight on the left), the bias column
  is repeated along the pixel axis, and the leading unit axis is dropped on the way in and added on the way out. So the
  stored block at (0, c, p) is   Σ_d W[c, d] · x[0, p, d]  +  b2[c, 0].
-/
import proofs.«173189_j29549374997247_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen
open Idealize.ShloMosaic Idealize.ShloMosaic.ValueIdx

/-- The product's dimension record: weight [128, 512] × activations [4096, 512] → [128, 4096], last axes contracted. -/
abbrev D : DotDims S128x512 S4096x512 S128x4096 := dot_S128x512_S4096x512_S128x4096_1_1_0_0_n_n

/-- The left operand's row is the result's row … -/
theorem lhs_row (j : S128x4096.Idx) (q : D.contr.Idx) : (D.lhsIdx j q 0).val = (j 0).val := by
  unfold DotDims.lhsIdx
  rw [dif_neg (show ¬(0 : Fin S128x512.rank) ∈ D.lhsBatch by decide),
    dif_pos (show (0 : Fin S128x512.rank) ∈ D.lhsNonContracting by decide)]
  rfl
/-- … its column the contraction position; -/
theorem lhs_col (j : S128x4096.Idx) (q : D.contr.Idx) : (D.lhsIdx j q 1).val = (q ⟨0, by decide⟩).val :=
  D.lhsIdx_val_of_single rfl j q
/-- the right operand's row is the result's column … -/
theorem rhs_row (j : S128x4096.Idx) (q : D.contr.Idx) : (D.rhsIdx j q 0).val = (j 1).val := by
  unfold DotDims.rhsIdx
  rw [dif_neg (show ¬(0 : Fin S4096x512.rank) ∈ D.rhsBatch by decide),
    dif_pos (show (0 : Fin S4096x512.rank) ∈ D.rhsNonContracting by decide)]
  rfl
/-- … its column the contraction position. -/
theorem rhs_col (j : S128x4096.Idx) (q : D.contr.Idx) : (D.rhsIdx j q 1).val = (q ⟨0, by decide⟩).val :=
  D.rhsIdx_val_of_single rfl j q

/-- The matrix product into the zero accumulator, at (c, p): Σ_d lhs[c, d] · rhs[p, d]. -/
theorem matmul_at (lhs : FVec Ideal S128x512 .bf16) (rhs : FVec Ideal S4096x512 .bf16) (c : Fin 128) (p : Fin 4096) :
    matmul D none lhs rhs (constant (F := Ideal) S128x4096 .f32 0x00000000#32) (ix2 c p)
      = ∑ k : Fin 512, lhs (ix2 c k) * rhs (ix2 p k) := by
  refine (Ideal.matmul_constant_zero_apply D none lhs rhs (ix2 c p)).trans ?_
  rw [← Equiv.sum_comp (contrEquiv1 D 512 rfl rfl).symm]
  refine Finset.sum_congr rfl fun k _ => ?_
  have hk := contrEquiv1_symm_val D 512 rfl rfl k
  have el : D.lhsIdx (ix2 c p) ((contrEquiv1 D 512 rfl rfl).symm k) = ix2 c k := funext fun a => Fin.ext (by
    match a with
    | ⟨0, _⟩ => exact lhs_row _ _
    | ⟨1, _⟩ => exact (lhs_col _ _).trans hk)
  have er : D.rhsIdx (ix2 c p) ((contrEquiv1 D 512 rfl rfl).symm k) = ix2 p k := funext fun a => Fin.ext (by
    match a with
    | ⟨0, _⟩ => exact rhs_row _ _
    | ⟨1, _⟩ => exact (rhs_col _ _).trans hk)
  rw [el, er]

/-- The bias column repeated along the pixel axis reads, at (c, p), the column at (c, 0). -/
theorem bias_at (b2 : FVec Ideal S128x1 .f32) (hb : S128x1.Broadcasts S128x4096) (c : Fin 128) (p : Fin 4096) :
    broadcastTo S128x4096 b2 hb (ix2 c p) = b2 (ix2 c (0 : Fin 1)) :=
  broadcastTo_apply b2 hb (ix2 c p) (ix2 c (0 : Fin 1)) (fun a => by
    match a with
    | ⟨0, _⟩ => show c.val = if (128 : Nat) = 1 then 0 else c.val; rw [if_neg (by decide)]
    | ⟨1, _⟩ => show 0 = if (1 : Nat) = 1 then 0 else p.val; rw [if_pos rfl])

/-- The stored block at (0, c, p) is Σ_d W[c, d] · x[0, p, d] + b2[c, 0]. -/
theorem payload_at (x0 : Vec Ideal S1x4096x512 .f32) (w : Vec Ideal S128x512 .f32) (b2 : Vec Ideal S128x1 .f32)
    (u : Fin 1) (c : Fin 128) (p : Fin 4096) :
    k0_pay1 (F := Ideal) x0 w b2 (ix3 u c p)
      = (∑ k : Fin 512, w (ix2 c k) * x0 (ix3 (0 : Fin 1) p k)) + b2 (ix2 c (0 : Fin 1)) := by
  unfold k0_pay1
  refine (shapeCast_ab_1ab_apply _ shapeCasts_S128x4096_S1x128x4096 u c p).trans ?_
  refine (addf_apply _ _ (ix2 c p)).trans ?_
  refine congrArg₂ (· + ·) ?_ ?_
  · refine (matmul_at _ _ c p).trans ?_
    refine Finset.sum_congr rfl fun k _ => ?_
    refine congrArg₂ (· * ·) rfl ?_
    exact shapeCast_1ab_ab_apply x0 shapeCasts_S1x4096x512_S4096x512 p k
  · refine (bias_at _ broadcasts_S128x1_S128x4096 c p).trans ?_
    rw [shapeCast_self]

/-- The same at any position of the block. -/
theorem payload_apply (x0 : Vec Ideal S1x4096x512 .f32) (w : Vec Ideal S128x512 .f32) (b2 : Vec Ideal S128x1 .f32)
    (y : S1x128x4096.Idx) :
    k0_pay1 (F := Ideal) x0 w b2 y
      = (∑ k : Fin 512, w (ix2 (y 1) k) * x0 (ix3 (0 : Fin 1) (y 2) k)) + b2 (ix2 (y 1) (0 : Fin 1)) := by
  obtain ⟨u, c, p, rfl⟩ : ∃ (u : Fin 1) (c : Fin 128) (p : Fin 4096), y = ix3 u c p := ⟨y 0, y 1, y 2, eq_ix3 y⟩
  exact payload_at x0 w b2 u c p

end Cert.KernelIdeal.BodyValue

end
-- ==== Proof.KernelValue.lean ====
/-
  What the kernel's program leaves in its result array, as one function of the argument arrays.

  The region runs over a 4 × 4 grid. At the point with coordinates (g, q) the body is handed the activation block
  x3[g, 4096·q … 4096·q + 4095, ·], the whole weight matrix and the whole bias column, and its stored block goes back to
  out3[g, ·, 4096·q … 4096·q + 4095]. Since the stored block at (0, c, p) is Σ_d W[c, d] · x3-block[0, p, d] + b2[c, 0]
  (the body's value), every point writes back a block of ONE array, the merged-pixel projection of x3, W and b2: the
  activation row the body reads for output pixel 4096·q + p is row 4096·q + p of x3[g]. The sixteen blocks tile out3
  (pixel P lies in the block of q = P / 4096), so after the region out3 is that array everywhere.

  Before the region the program re-lays x to x3 (the two pixel axes merged) and the bias to a column; after it, it re-lays
  out3 to the four-axis result. Row-major re-laying of the merged projection is the projection itself.
-/
import proofs.«173189_j29549374997247_2_alg».proof.Proof.Gen.KernelIdeal.Frame
import proofs.«173189_j29549374997247_2_alg».proof.Proof.BodyValue
import proofs.«173189_j29549374997247_2_alg».proof.Proof.ProjSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.ChannelProj
open Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps, decided over the sixteen points: the activation window follows the output window (its image
    and pixel-block coordinates are the output's first and last), the weight and bias windows stay at block zero, the
    output's channel block is zero. -/
theorem idx_facts : ∀ t : Fin cfg0.N, win0_0.index t (0 : Fin 3) = win0_3.index t (0 : Fin 3)
    ∧ win0_0.index t (1 : Fin 3) = win0_3.index t (2 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0
    ∧ win0_3.index t (0 : Fin 3) ≤ 3 ∧ win0_3.index t (2 : Fin 3) ≤ 3 :=
  (by decide +kernel : ∀ t : Fin grid0.N, _)

/-- Every (image, pixel-block) pair is some point's output block. -/
theorem idx_onto : ∀ (g q : Fin 4), ∃ t : Fin cfg0.N, win0_3.index t = ![g.val, 0, q.val] :=
  (by decide +kernel : ∀ (g q : Fin 4), ∃ t : Fin grid0.N, win0_3.index t = ![g.val, 0, q.val])

/-- The activation block at a point, read at a position, is the merged activation array at block index × block size +
    the position, axis by axis. -/
theorem x_block (c : Dev nD) (t : Fin cfg0.N) (y : S1x4096x512.Idx) (i : S4x16384x512.Idx)
    (h0 : win0_0.index t (0 : Fin 3) * 1 + 1 * (y 0).val = (i 0).val)
    (h1 : win0_0.index t (1 : Fin 3) * 4096 + 1 * (y 1).val = (i 1).val)
    (h2 : win0_0.index t (2 : Fin 3) * 512 + 1 * (y 2).val = (i 2).val) :
    (iblk m c 0 t : Vec Ideal S1x4096x512 .f32) y = (V m c main_v0 : S4x16384x512.Idx → EReal) i := by
  unfold iblk
  rw [View.read_apply]
  show V m c main_v0 _ = V m c main_v0 _
  refine congrArg (V m c main_v0) (funext fun a => Fin.ext ?_)
  match a with
  | ⟨0, _⟩ => exact h0
  | ⟨1, _⟩ => exact h1
  | ⟨2, _⟩ => exact h2

/-- The weight block likewise … -/
theorem w_block (c : Dev nD) (t : Fin cfg0.N) (y : S128x512.Idx) (i : S128x512.Idx)
    (h0 : win0_1.index t (0 : Fin 2) * 128 + 1 * (y 0).val = (i 0).val)
    (h1 : win0_1.index t (1 : Fin 2) * 512 + 1 * (y 1).val = (i 1).val) :
    (iblk m c 1 t : Vec Ideal S128x512 .f32) y = (V m c main_arg1 : S128x512.Idx → EReal) i := by
  unfold iblk
  rw [View.read_apply]
  show V m c main_arg1 _ = V m c main_arg1 _
  refine congrArg (V m c main_arg1) (funext fun a => Fin.ext ?_)
  match a with
  | ⟨0, _⟩ => exact h0
  | ⟨1, _⟩ => exact h1

/-- … and the bias column's. -/
theorem b_block (c : Dev nD) (t : Fin cfg0.N) (y : S128x1.Idx) (i : S128x1.Idx)
    (h0 : win0_2.index t (0 : Fin 2) * 128 + 1 * (y 0).val = (i 0).val)
    (h1 : win0_2.index t (1 : Fin 2) * 1 + 1 * (y 1).val = (i 1).val) :
    (iblk m c 2 t : Vec Ideal S128x1 .f32) y = (V m c main_v1 : S128x1.Idx → EReal) i := by
  unfold iblk
  rw [View.read_apply]
  show V m c main_v1 _ = V m c main_v1 _
  refine congrArg (V m c main_v1) (funext fun a => Fin.ext ?_)
  match a with
  | ⟨0, _⟩ => exact h0
  | ⟨1, _⟩ => exact h1

/-- The arrays the region finds: the merged activations, the weights, the bias column. -/
abbrev X3 (c : Dev nD) : FVec Ideal S4x16384x512 .f32 := V m c main_v0
abbrev Wt (c : Dev nD) : FVec Ideal S128x512 .f32 := V m c main_arg1
abbrev B2 (c : Dev nD) : FVec Ideal S128x1 .f32 := V m c main_v1

/-- Their merged-pixel projection. -/
abbrev merged (c : Dev nD) : FVec Ideal S4x128x16384 .f32 := projMerged (X3 m c) (Wt m c) (B2 m c)

/-- What a point writes back is its block of the merged-pixel projection. -/
theorem flushed_eq (c : Dev nD) (t : Fin cfg0.N) :
    (dats m 0 c).flushed 3 t = ((cfg0.win 3).blk t).view.read (Elt Ideal) (merged m c) := by
  show (cfg0.win 3).cut (grid0.coords t) ((dats m 0 c).after 3 t) = _
  rw [after0_3]
  unfold out0_3
  rw [View.canon_unit_zero hz3]
  simp only [View.ld_unit_zero (S := S1x4096x512) hz3, View.ld_unit_zero (S := S128x512) hz2, View.ld_unit_zero (S := S128x1) hz2]
  obtain ⟨e0, e1, e2, e3, e4, e5, e6, e7, e8, e9⟩ := idx_facts t
  funext j
  show k0_pay1 (F := Ideal) (iblk m c 0 t) (iblk m c 1 t) (iblk m c 2 t) j = merged m c (((cfg0.win 3).blk t).view.emb j)
  refine (BodyValue.payload_apply (iblk m c 0 t) (iblk m c 1 t) (iblk m c 2 t) j).trans ?_
  have hj0 : (j 0).val < 1 := (j 0).isLt
  show _ = (∑ k : Fin 512, Wt m c (ix2 ((((cfg0.win 3).blk t).view.emb j) 1) k)
      * X3 m c (ix3 ((((cfg0.win 3).blk t).view.emb j) 0) ((((cfg0.win 3).blk t).view.emb j) 2) k))
    + B2 m c (ix2 ((((cfg0.win 3).blk t).view.emb j) 1) (0 : Fin 1))
  refine congrArg₂ (· + ·) (Finset.sum_congr rfl fun k _ => congrArg₂ (· * ·) ?_ ?_) ?_
  · exact w_block m c t _ _
      (by show win0_1.index t (0 : Fin 2) * 128 + 1 * (j 1).val = win0_3.index t (1 : Fin 3) * 128 + 1 * (j 1).val; omega)
      (by show win0_1.index t (1 : Fin 2) * 512 + 1 * k.val = k.val; omega)
  · exact x_block m c t _ _
      (by show win0_0.index t (0 : Fin 3) * 1 + 1 * 0 = win0_3.index t (0 : Fin 3) * 1 + 1 * (j 0).val; omega)
      (by show win0_0.index t (1 : Fin 3) * 4096 + 1 * (j 2).val = win0_3.index t (2 : Fin 3) * 4096 + 1 * (j 2).val; omega)
      (by show win0_0.index t (2 : Fin 3) * 512 + 1 * k.val = k.val; omega)
  · exact b_block m c t _ _
      (by show win0_2.index t (0 : Fin 2) * 128 + 1 * (j 1).val = win0_3.index t (1 : Fin 3) * 128 + 1 * (j 1).val; omega)
      (by show win0_2.index t (1 : Fin 2) * 1 + 1 * 0 = 0; omega)

/-- A position of the result array lies in a point's block iff each coordinate lies in the block's range on its axis. -/
theorem mem_blk (t : Fin cfg0.N) (i : S4x128x16384.Idx) :
    i ∈ ((cfg0.win 3).blk t).view.set ↔ ∀ a : Fin 3, win0_3.index t a * S1x128x4096.size a ≤ (i a).val ∧ (i a).val < win0_3.index t a * S1x128x4096.size a + S1x128x4096.size a := by
  show i ∈ ((View.whole main_v2).slice (win0_3.rect t)).set ↔ _
  rw [View.set_slice_whole, Rect.mem_set_unit]
  exact Iff.rfl

/-- The sixteen blocks tile the array: image g, pixel P lies in the block of the point with output block (g, 0, P / 4096). -/
theorem cover (i : S4x128x16384.Idx) :
    ∃ t : Fin cfg0.N, (cfg0.win 3).flush t = true ∧ i ∈ ((cfg0.win 3).blk t).view.set := by
  have hi0 : (i 0).val < 4 := (i 0).isLt
  have hi1 : (i 1).val < 128 := (i 1).isLt
  have hi2 : (i 2).val < 16384 := (i 2).isLt
  obtain ⟨t, ht⟩ := idx_onto ⟨(i 0).val, hi0⟩ ⟨(i 2).val / 4096, by omega⟩
  have q0 : win0_3.index t (0 : Fin 3) = (i 0).val := congrFun ht 0
  have q1 : win0_3.index t (1 : Fin 3) = 0 := congrFun ht 1
  have q2 : win0_3.index t (2 : Fin 3) = (i 2).val / 4096 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 4096 ≤ (i 2).val ∧ (i 2).val < win0_3.index t (2 : Fin 3) * 4096 + 4096; omega

/-- After the region the merged result array is the merged-pixel projection of the arrays the region found. -/
theorem final (c : Dev nD) : (dats m 0 c).arrAt 3 cfg0.N = merged m c :=
  (dats m 0 c).arrAt_eq_of_cover 3 (merged m c) (fun t _ => flushed_eq m c t) cover

/-- The region finds the activations re-laid with the two pixel axes merged … -/
theorem V_x3 (c : Dev nD) : (V m c main_v0 : S4x16384x512.Idx → EReal)
    = shapeCast S4x16384x512 (m ((c : Thread nD τ).loc main_arg0) : S4x128x128x512.Idx → EReal) shapeCasts_S4x128x128x512_S4x16384x512 := by
  show StableHlo.after hostOps0 (fun b => m (c, b)) (Proc.devRef .tc main_v0) = _
  after_results
  rfl

/-- … and the bias re-laid as a column. -/
theorem V_b2 (c : Dev nD) : (V m c main_v1 : S128x1.Idx → EReal)
    = shapeCast S128x1 (m ((c : Thread nD τ).loc main_arg2) : S128.Idx → EReal) shapeCasts_S128_S128x1 := by
  show StableHlo.after hostOps0 (fun b => m (c, b)) (Proc.devRef .tc main_v1) = _
  after_results
  rfl

/-- The program's result: the merged result array re-laid to four axes. -/
theorem tail_eq (c : Dev nD) :
    (Pipeline.afterTail₀ cfgs (dats m) 0 (V0 m) [hostOps1] c main_v3 : S4x128x128x128.Idx → EReal)
      = shapeCast S4x128x128x128 ((dats m 0 c).arrAt 3 cfg0.N : S4x128x16384.Idx → EReal) shapeCasts_S4x128x16384_S4x128x128x128 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [hw]
  rfl

/-- The program's result is the projection of its three arguments as launched: the region found x re-laid, W itself and
    the bias as a column; it left their merged-pixel projection; re-laid to four axes that is the projection. -/
theorem result_eq (c : Dev nD) :
    (Pipeline.afterTail₀ cfgs (dats m) 0 (V0 m) [hostOps1] c main_v3 : S4x128x128x128.Idx → EReal)
      = proj (m ((c : Thread nD τ).loc main_arg0)) (m ((c : Thread nD τ).loc main_arg1)) (m ((c : Thread nD τ).loc main_arg2)) := by
  refine (tail_eq m c).trans ?_
  rw [final]
  have e : merged m c = projMerged
      (shapeCast S4x16384x512 (m ((c : Thread nD τ).loc main_arg0) : S4x128x128x512.Idx → EReal) shapeCasts_S4x128x128x512_S4x16384x512)
      (m ((c : Thread nD τ).loc main_arg1))
      (shapeCast S128x1 (m ((c : Thread nD τ).loc main_arg2) : S128.Idx → EReal) shapeCasts_S128_S128x1) := by
    show projMerged (X3 m c) (Wt m c) (B2 m c) = _
    rw [show X3 m c = _ from V_x3 m c, show Wt m c = _ from V_main_arg1 m c, show B2 m c = _ from V_b2 m c]
  rw [e]
  exact relay_projMerged _ _ _ _ _ _

/-- The run, read: every weakly fair execution ends with the result array at the projection of the arguments, and the
    arguments as launched. -/
theorem run : θ_run defs (onTc (τ := τ) (main (F := Ideal))) ⟨m, fun _ => 0, ρ⟩ fun r => ∀ c : Dev nD,
      r.2.mem ((c.tc : Thread nD τ).loc main_v3)
        = proj (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.ProjValue

end
-- ==== Proof.lean ====
/-
  The channel-wise projection kernel against its reference.

  Both programs compute, from activations x[b, h, w, d], weights W[c, d] and a bias bias[c],
      out[b, c, h, w] = Σ_d x[b, h, w, d] · W[c, d] + bias[c].
  The kernel's program merges the two pixel axes, hands a 4 × 4 grid of points a 4096-pixel block each, forms on each block
  the matrix product W · blockᵀ (both operands narrowed on the way in, which is the identity on exact values) plus the bias
  column, and splits the pixel axis again; the reference contracts x with W directly, adds the broadcast bias and moves
  the channel axis forward. On the extended reals the two are the same function of the arguments: the merging and
  splitting only rename positions, and each product x · W is W · x read the other way round. No law that needs finite
  entries is used, so the precondition is never opened.

  The three frames are the generated ones (the reference's is its generated run with the result dropped); the
  idealization rewrote nothing, so `preserves` is trivial; `algebraic` puts the kernel's run (Proof/KernelValue.lean, over
  the body's value in Proof/BodyValue.lean) beside the reference's generated run read as the projection
  (Proof/RefValue.lean), both at the one function `proj` of Proof/ProjSpec.lean.
-/
import proofs.«173189_j29549374997247_2_alg».proof.Defs
import proofs.«173189_j29549374997247_2_alg».proof.Proof.Gen.Kernel
import proofs.«173189_j29549374997247_2_alg».proof.Proof.Gen.Kernel.Skeleton
import proofs.«173189_j29549374997247_2_alg».proof.Proof.Gen.Kernel.Launch
import proofs.«173189_j29549374997247_2_alg».proof.Proof.Gen.Kernel.Points
import proofs.«173189_j29549374997247_2_alg».proof.Proof.Gen.Kernel.Frame
import proofs.«173189_j29549374997247_2_alg».proof.Proof.Gen.KernelIdeal
import proofs.«173189_j29549374997247_2_alg».proof.Proof.Gen.KernelIdeal.Skeleton
import proofs.«173189_j29549374997247_2_alg».proof.Proof.Gen.KernelIdeal.Launch
import proofs.«173189_j29549374997247_2_alg».proof.Proof.Gen.KernelIdeal.Points
import proofs.«173189_j29549374997247_2_alg».proof.Proof.Gen.KernelIdeal.Frame
import proofs.«173189_j29549374997247_2_alg».proof.Proof.Gen.ReferenceIdeal
import proofs.«173189_j29549374997247_2_alg».proof.Proof.Gen.Pre_finite_inputs
import proofs.«173189_j29549374997247_2_alg».proof.Proof.Gen.ReferenceIdeal.Run
import proofs.«173189_j29549374997247_2_alg».proof.Proof.Gen.ReferenceIdeal.Read
import proofs.«173189_j29549374997247_2_alg».proof.Proof.ProjSpec
import proofs.«173189_j29549374997247_2_alg».proof.Proof.RefValue
import proofs.«173189_j29549374997247_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories agreeing on x, W and bias both programs end with the projection of those three arrays in their
    result. -/
theorem algebraic : Cert.algebraic_KernelIdeal_ReferenceIdeal := by
  intro m ρ m' ρ' _ hagree
  refine ⟨fun c => Cert.ChannelProj.proj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ProjValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v4_eq (F := Ideal) _ _ _).trans ?_
  refine (Cert.ReferenceIdeal.ProjValue.result_eq _ _ _).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
